-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S800000 .f32) (main_arg3 : FVec F S64x64 .f32) (main_arg4 : FVec F S64x64 .f32) (main_arg5 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S64x128 : Shape := ⟨2, ![64, 128]⟩
abbrev S128x128 : Shape := ⟨2, ![128, 128]⟩
abbrev S5000x128 : Shape := ⟨2, ![5000, 128]⟩
abbrev S1x128 : Shape := ⟨2, ![1, 128]⟩

abbrev nBuf : Space → Nat
  | .hbm => 47
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64x64, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x1, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x128, .f32⟩
  | .hbm, ⟨39, _⟩ => ⟨S_, .f32⟩
  | .hbm, ⟨40, _⟩ => ⟨S64x64, .f32⟩
  | .hbm, ⟨41, _⟩ => ⟨S_, .f32⟩
  | .hbm, ⟨42, _⟩ => ⟨S64x64, .f32⟩
  | .hbm, ⟨43, _⟩ => ⟨S64x128, .f32⟩
  | .hbm, ⟨44, _⟩ => ⟨S64x128, .f32⟩
  | .hbm, ⟨45, _⟩ => ⟨S128x128, .f32⟩
  | .hbm, ⟨46, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64x64, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x1, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Tile.lean ====
/-
  One row block of the dense stage: what the kernel body computes from a 5000×128 block X of the side-by-side
  features, the 128×128 weight D and the bias β, entry by entry:
      max (Σ_l X(p,l)·D(l,q) + β(q)) 0.
  The two changes of float format in front of the product are the identity on extended reals; the product into a
  zero accumulator is the plain sum over the contraction index; the bias, a vector of 128, is read as a one-row
  matrix and repeated down the block's 5000 rows; the clamp is a maximum with the zero word, which denotes 0.
-/
import proofs.«101507_j79972291052240_1_alg».proof.Proof.Gen.KernelIdeal.Skeleton
import proofs.«101507_j79972291052240_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The block's product: row p of X against column q of D. -/
theorem product_apply (x0 : Vec Ideal S5000x128 .f32) (x1 : Vec Ideal S128x128 .f32) (p : Fin 5000) (q : Fin 128) :
    matmul (F := Ideal) dot_S5000x128_S128x128_S5000x128_1_0_0_1_n_n none
        (truncf .bf16 (shapeCast S5000x128 x0 shapeCasts_S5000x128_S5000x128) bitsLt_bf16_f32)
        (truncf .bf16 (shapeCast S128x128 x1 shapeCasts_S128x128_S128x128) bitsLt_bf16_f32)
        (constant S5000x128 .f32 0x00000000#32) (ix2 p q)
      = ∑ l : Fin 128, x0 (ix2 p l) * x1 (ix2 l q) := by
  rw [shapeCast_self, shapeCast_self]
  exact (LibPlainDot.matmul_zero_apply (M := 5000) (K := 128) (N := 128) none _ _ p q).trans
    (Finset.sum_congr rfl fun l _ => rfl)

/-- The bias down the block: entry (p, q) is β(q). -/
theorem bias_apply (x2 : Vec Ideal S128 .f32) (p : Fin 5000) (q : Fin 128) :
    broadcastTo S5000x128 (shapeCast S1x128 x2 shapeCasts_S128_S1x128) broadcasts_S1x128_S5000x128 (ix2 p q) = x2 (ix1 q) :=
  (broadcastTo_1b_ab_apply _ _ p q).trans (shapeCast_a_1a_apply x2 _ 0 q)

/-- The body's stored value at entry (p, q) of the block. -/
theorem tile_apply (x0 : Vec Ideal S5000x128 .f32) (x1 : Vec Ideal S128x128 .f32) (x2 : Vec Ideal S128 .f32)
    (p : Fin 5000) (q : Fin 128) :
    k0_pay1 (F := Ideal) x0 x1 x2 (ix2 p q)
      = max ((∑ l : Fin 128, x0 (ix2 p l) * x1 (ix2 l q)) + x2 (ix1 q)) 0 := by
  unfold k0_pay1
  refine (maximumf_apply _ _ _).trans ?_
  refine congrArg₂ max ((addf_apply _ _ _).trans (congrArg₂ (· + ·) (product_apply x0 x1 p q) (bias_apply x2 p q))) ?_
  exact Ideal.ofBits_zero_f32

end Cert.KernelIdeal.Tile

end
-- ==== Proof.LibConcat2.lean ====
/-
  Two matrices joined along one axis, read at an index given by coordinates; and a sum over a range cut in two.

  Two pieces [R, C₁] and [R, C₂] laid side by side along axis 1 read, at (r, g), the first piece at (r, g) when
  column g is one of its own, and the second at (r, g − C₁) otherwise. Two pieces [R₁, C] and [R₂, C] stacked
  along axis 0 read, at (r, g), the first at (r, g) when row r is one of its own, and the second at (r − R₁, g)
  otherwise. The position inside the piece is given as a coordinate of its own with the equation that ties it to
  the joined coordinate, so that no subtraction appears in a statement.

  A sum over a + b positions is the sum over the first a plus the sum over the last b.
-/
import Idealize.ShloMosaic.Lib.Pipeline.Value
import Idealize.ShloMosaic.Lib.ValueIdx

open scoped BigOperators

namespace Cert.LibConcat2

open Idealize.ShloMosaic Idealize.ShloMosaic.ValueIdx

variable {α : Type}

/-- Side by side, a column of the first piece. -/
theorem cols_left {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₁) (hg : g'.val = g.val) :
    concatenate ⟨2, ![R, C]⟩ 1 [⟨⟨2, ![R, C₁]⟩, a⟩, ⟨⟨2, ![R, C₂]⟩, b⟩] h (ix2 r g) = a (ix2 r g') :=
  concatenate_pair_apply_left 1 a b h (ix2 r g) rfl (ix2 r g') fun ax => by
    match ax with
    | ⟨0, _⟩ => rfl
    | ⟨1, _⟩ => exact hg

/-- Side by side, a column of the second piece. -/
theorem cols_right {R C₁ C₂ C : ℕ} (a : (⟨2, ![R, C₁]⟩ : Shape).Idx → α) (b : (⟨2, ![R, C₂]⟩ : Shape).Idx → α)
    (h : Shape.Concatenates [(⟨2, ![R, C₁]⟩ : Shape), ⟨2, ![R, C₂]⟩] ⟨2, ![R, C]⟩ 1)
    (r : Fin R) (g : Fin C) (g' : Fin C₂) (hg : g'.val + C₁ = g.val) :
    concatenate ⟨2, ![R, C]⟩ 1 [⟨⟨2, ![R, C₁]⟩, a⟩, ⟨⟨2, ![R, C₂]⟩, b⟩] h (ix2 r g) = b (ix2 r g') :=
  concatenate_pair_apply_right 1 a b h (ix2 r g) rfl rfl (ix2 r g')
    (fun ax hne => by
      match ax with
      | ⟨0, _⟩ => rfl
      | ⟨1, _⟩ => exact absurd rfl hne)
    hg

/-- Stacked, a row of the first piece. -/
theorem rows_left {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₁) (hr : r'.val = r.val) (g : Fin C) :
    concatenate ⟨2, ![R, C]⟩ 0 [⟨⟨2, ![R₁, C]⟩, a⟩, ⟨⟨2, ![R₂, C]⟩, b⟩] h (ix2 r g) = a (ix2 r' g) :=
  concatenate_pair_apply_left 0 a b h (ix2 r g) rfl (ix2 r' g) fun ax => by
    match ax with
    | ⟨0, _⟩ => exact hr
    | ⟨1, _⟩ => rfl

/-- Stacked, a row of the second piece. -/
theorem rows_right {R₁ R₂ R C : ℕ} (a : (⟨2, ![R₁, C]⟩ : Shape).Idx → α) (b : (⟨2, ![R₂, C]⟩ : Shape).Idx → α)
    (h : Shape.Concatenates [(⟨2, ![R₁, C]⟩ : Shape), ⟨2, ![R₂, C]⟩] ⟨2, ![R, C]⟩ 0)
    (r : Fin R) (r' : Fin R₂) (hr : r'.val + R₁ = r.val) (g : Fin C) :
    concatenate ⟨2, ![R, C]⟩ 0 [⟨⟨2, ![R₁, C]⟩, a⟩, ⟨⟨2, ![R₂, C]⟩, b⟩] h (ix2 r g) = b (ix2 r' g) :=
  concatenate_pair_apply_right 0 a b h (ix2 r g) rfl rfl (ix2 r' g)
    (fun ax hne => by
      match ax with
      | ⟨0, _⟩ => exact absurd rfl hne
      | ⟨1, _⟩ => rfl)
    hr

/-- A sum over a + b positions, cut after the first a. -/
theorem sum_two_blocks {M : Type*} [AddCommMonoid M] {a b n : ℕ} (hn : a + b = n) (f : Fin n → M) :
    ∑ l : Fin n, f l
      = ∑ l : Fin a, f ⟨l.val, by have := l.isLt; omega⟩ + ∑ l : Fin b, f ⟨a + l.val, by have := l.isLt; omega⟩ := by
  subst hn
  exact Fin.sum_univ_add f

end Cert.LibConcat2
-- ==== Proof.Layer.lean ====
/-
  The dense stage of one graph-convolution layer, entry by entry, and the law by which ONE product against a
  block-diagonal weight stands for the layer's two separate projections.

  With x the nodes' own features and a their aggregated neighbour features (64 wide each), Ws and Wn the two
  64×64 projections and β the bias of width 128, the layer's output at node n and unit u is
      max (Σ_l x(n,l)·Ws(l,u) + β(u)) 0           for u < 64,
      max (Σ_l a(n,l)·Wn(l,u−64) + β(u)) 0        for 64 ≤ u.
  Write [x | a] for the two feature rows laid side by side and D for the 128×128 matrix with Ws and Wn on its
  diagonal and zeros off it. The sum Σ_{l<128} [x | a](n,l)·D(l,u) is cut after l = 64. One half multiplies by
  zeros and vanishes; the other half is the projection that owns column u. Zero absorbs every extended real, the
  infinities included, so the law asks nothing of the entries: no finiteness is used.
-/
import proofs.«101507_j79972291052240_1_alg».proof.Proof.LibConcat2
import Idealize.ShloMosaic.PureOps.Ideal

noncomputable section

open scoped BigOperators

namespace Cert.Layer

open Idealize.ShloMosaic Idealize.ShloMosaic.ValueIdx

/-- The layer's output at node `n`, unit `u`: the projection that owns column `u`, plus the bias, clamped at zero. -/
def layerAt (x a : (⟨2, ![50000, 64]⟩ : Shape).Idx → EReal) (ws wn : (⟨2, ![64, 64]⟩ : Shape).Idx → EReal)
    (β : (⟨1, ![128]⟩ : Shape).Idx → EReal) (n : Fin 50000) (u : Fin 128) : EReal :=
  max ((if h : u.val < 64 then ∑ l : Fin 64, x (ix2 n l) * ws (ix2 l ⟨u.val, h⟩)
        else ∑ l : Fin 64, a (ix2 n l) * wn (ix2 l ⟨u.val - 64, by have := u.isLt; omega⟩)) + β (ix1 u)) 0

/-- The layer's whole output array. -/
def layer (x a : (⟨2, ![50000, 64]⟩ : Shape).Idx → EReal) (ws wn : (⟨2, ![64, 64]⟩ : Shape).Idx → EReal)
    (β : (⟨1, ![128]⟩ : Shape).Idx → EReal) : (⟨2, ![50000, 128]⟩ : Shape).Idx → EReal :=
  fun i => layerAt x a ws wn β (i 0) (i 1)

/-- The 128×128 weight with `ws` and `wn` on its diagonal: two 64×128 slabs [ws | z₁] and [z₂ | wn], stacked. -/
def blockDiag (ws wn z₁ z₂ : (⟨2, ![64, 64]⟩ : Shape).Idx → EReal)
    (hW : Shape.Concatenates [(⟨2, ![64, 64]⟩ : Shape), ⟨2, ![64, 64]⟩] ⟨2, ![64, 128]⟩ 1)
    (hD : Shape.Concatenates [(⟨2, ![64, 128]⟩ : Shape), ⟨2, ![64, 128]⟩] ⟨2, ![128, 128]⟩ 0) :
    (⟨2, ![128, 128]⟩ : Shape).Idx → EReal :=
  concatenate ⟨2, ![128, 128]⟩ 0
    [⟨⟨2, ![64, 128]⟩, concatenate ⟨2, ![64, 128]⟩ 1 [⟨⟨2, ![64, 64]⟩, ws⟩, ⟨⟨2, ![64, 64]⟩, z₁⟩] hW⟩,
     ⟨⟨2, ![64, 128]⟩, concatenate ⟨2, ![64, 128]⟩ 1 [⟨⟨2, ![64, 64]⟩, z₂⟩, ⟨⟨2, ![64, 64]⟩, wn⟩] hW⟩] hD

section Quadrants

variable (ws wn z₁ z₂ : (⟨2, ![64, 64]⟩ : Shape).Idx → EReal)
  (hW : Shape.Concatenates [(⟨2, ![64, 64]⟩ : Shape), ⟨2, ![64, 64]⟩] ⟨2, ![64, 128]⟩ 1)
  (hD : Shape.Concatenates [(⟨2, ![64, 128]⟩ : Shape), ⟨2, ![64, 128]⟩] ⟨2, ![128, 128]⟩ 0)

/-- Upper left quadrant: `ws`. -/
theorem blockDiag_ul (r u : Fin 128) (r' u' : Fin 64) (hr : r'.val = r.val) (hu : u'.val = u.val) :
    blockDiag ws wn z₁ z₂ hW hD (ix2 r u) = ws (ix2 r' u') :=
  (LibConcat2.rows_left
      (concatenate ⟨2, ![64, 128]⟩ 1 [⟨⟨2, ![64, 64]⟩, ws⟩, ⟨⟨2, ![64, 64]⟩, z₁⟩] hW)
      (concatenate ⟨2, ![64, 128]⟩ 1 [⟨⟨2, ![64, 64]⟩, z₂⟩, ⟨⟨2, ![64, 64]⟩, wn⟩] hW) hD r r' hr u).trans
    (LibConcat2.cols_left ws z₁ hW r' u u' hu)

/-- Upper right quadrant: `z₁`. -/
theorem blockDiag_ur (r u : Fin 128) (r' u' : Fin 64) (hr : r'.val = r.val) (hu : u'.val + 64 = u.val) :
    blockDiag ws wn z₁ z₂ hW hD (ix2 r u) = z₁ (ix2 r' u') :=
  (LibConcat2.rows_left
      (concatenate ⟨2, ![64, 128]⟩ 1 [⟨⟨2, ![64, 64]⟩, ws⟩, ⟨⟨2, ![64, 64]⟩, z₁⟩] hW)
      (concatenate ⟨2, ![64, 128]⟩ 1 [⟨⟨2, ![64, 64]⟩, z₂⟩, ⟨⟨2, ![64, 64]⟩, wn⟩] hW) hD r r' hr u).trans
    (LibConcat2.cols_right ws z₁ hW r' u u' hu)

/-- Lower left quadrant: `z₂`. -/
theorem blockDiag_ll (r u : Fin 128) (r' u' : Fin 64) (hr : r'.val + 64 = r.val) (hu : u'.val = u.val) :
    blockDiag ws wn z₁ z₂ hW hD (ix2 r u) = z₂ (ix2 r' u') :=
  (LibConcat2.rows_right
      (concatenate ⟨2, ![64, 128]⟩ 1 [⟨⟨2, ![64, 64]⟩, ws⟩, ⟨⟨2, ![64, 64]⟩, z₁⟩] hW)
      (concatenate ⟨2, ![64, 128]⟩ 1 [⟨⟨2, ![64, 64]⟩, z₂⟩, ⟨⟨2, ![64, 64]⟩, wn⟩] hW) hD r r' hr u).trans
    (LibConcat2.cols_left z₂ wn hW r' u u' hu)

/-- Lower right quadrant: `wn`. -/
theorem blockDiag_lr (r u : Fin 128) (r' u' : Fin 64) (hr : r'.val + 64 = r.val) (hu : u'.val + 64 = u.val) :
    blockDiag ws wn z₁ z₂ hW hD (ix2 r u) = wn (ix2 r' u') :=
  (LibConcat2.rows_right
      (concatenate ⟨2, ![64, 128]⟩ 1 [⟨⟨2, ![64, 64]⟩, ws⟩, ⟨⟨2, ![64, 64]⟩, z₁⟩] hW)
      (concatenate ⟨2, ![64, 128]⟩ 1 [⟨⟨2, ![64, 64]⟩, z₂⟩, ⟨⟨2, ![64, 64]⟩, wn⟩] hW) hD r r' hr u).trans
    (LibConcat2.cols_right z₂ wn hW r' u u' hu)

end Quadrants

/-- The contraction of [x | a] against the block-diagonal weight, at node `n` and unit `u`, is the projection that
    owns column `u`. The two off-diagonal blocks `z₁`, `z₂` are only known to be zero entry by entry. -/
theorem contraction (x a : (⟨2, ![50000, 64]⟩ : Shape).Idx → EReal) (ws wn z₁ z₂ : (⟨2, ![64, 64]⟩ : Shape).Idx → EReal)
    (hz₁ : ∀ i, z₁ i = 0) (hz₂ : ∀ i, z₂ i = 0)
    (hA : Shape.Concatenates [(⟨2, ![50000, 64]⟩ : Shape), ⟨2, ![50000, 64]⟩] ⟨2, ![50000, 128]⟩ 1)
    (hW : Shape.Concatenates [(⟨2, ![64, 64]⟩ : Shape), ⟨2, ![64, 64]⟩] ⟨2, ![64, 128]⟩ 1)
    (hD : Shape.Concatenates [(⟨2, ![64, 128]⟩ : Shape), ⟨2, ![64, 128]⟩] ⟨2, ![128, 128]⟩ 0)
    (n : Fin 50000) (u : Fin 128) :
    (∑ l : Fin 128,
        concatenate ⟨2, ![50000, 128]⟩ 1 [⟨⟨2, ![50000, 64]⟩, x⟩, ⟨⟨2, ![50000, 64]⟩, a⟩] hA (ix2 n l)
          * blockDiag ws wn z₁ z₂ hW hD (ix2 l u))
      = if h : u.val < 64 then ∑ l : Fin 64, x (ix2 n l) * ws (ix2 l ⟨u.val, h⟩)
        else ∑ l : Fin 64, a (ix2 n l) * wn (ix2 l ⟨u.val - 64, by have := u.isLt; omega⟩) := by
  refine (LibConcat2.sum_two_blocks (a := 64) (b := 64) rfl _).trans ?_
  have hu128 := u.isLt
  by_cases hu : u.val < 64
  · rw [dif_pos hu]
    -- the first half meets Ws, the second half meets zeros
    refine (congrArg₂ (· + ·)
      (Finset.sum_congr rfl fun (l : Fin 64) _ => congrArg₂ (· * ·)
        (LibConcat2.cols_left x a hA n ⟨l.val, by have := l.isLt; omega⟩ l rfl)
        (blockDiag_ul ws wn z₁ z₂ hW hD ⟨l.val, by have := l.isLt; omega⟩ u l ⟨u.val, hu⟩ rfl rfl))
      (Finset.sum_congr rfl fun (l : Fin 64) _ => congrArg₂ (· * ·)
        (LibConcat2.cols_right x a hA n ⟨64 + l.val, by have := l.isLt; omega⟩ l (Nat.add_comm _ _))
        ((blockDiag_ll ws wn z₁ z₂ hW hD ⟨64 + l.val, by have := l.isLt; omega⟩ u l ⟨u.val, hu⟩ (Nat.add_comm _ _) rfl).trans
          (hz₂ _)))).trans ?_
    simp only [mul_zero, Finset.sum_const_zero, add_zero]
  · rw [dif_neg hu]
    -- the first half meets zeros, the second half meets Wn
    have hu' : u.val - 64 + 64 = u.val := by omega
    refine (congrArg₂ (· + ·)
      (Finset.sum_congr rfl fun (l : Fin 64) _ => congrArg₂ (· * ·)
        (LibConcat2.cols_left x a hA n ⟨l.val, by have := l.isLt; omega⟩ l rfl)
        ((blockDiag_ur ws wn z₁ z₂ hW hD ⟨l.val, by have := l.isLt; omega⟩ u l ⟨u.val - 64, by omega⟩ rfl hu').trans
          (hz₁ _)))
      (Finset.sum_congr rfl fun (l : Fin 64) _ => congrArg₂ (· * ·)
        (LibConcat2.cols_right x a hA n ⟨64 + l.val, by have := l.isLt; omega⟩ l (Nat.add_comm _ _))
        (blockDiag_lr ws wn z₁ z₂ hW hD ⟨64 + l.val, by have := l.isLt; omega⟩ u l ⟨u.val - 64, by omega⟩
          (Nat.add_comm _ _) hu'))).trans ?_
    simp only [mul_zero, Finset.sum_const_zero, zero_add]

end Cert.Layer

end
-- ==== Proof.Operands.lean ====
/-
  What the dense stage is handed: the three arrays the host lines build before the kernel runs.

  The feature matrix is the nodes' own features x beside their neighbour means a: [x | a], 50000×128. The mean a is
  the edge-weighted sum of gathered neighbour rows divided by the clamped in-degree; the reference computes it by
  the very same host lines, so it is named here by the reference's own stage and never opened. The weight is the
  block-diagonal 128×128 matrix with the two projections on the diagonal and two constant-zero blocks off it. The
  bias is the argument itself.
-/
import proofs.«101507_j79972291052240_1_alg».proof.Proof.Gen.KernelIdeal.Frame
import proofs.«101507_j79972291052240_1_alg».proof.Proof.Gen.ReferenceIdeal.Read
import proofs.«101507_j79972291052240_1_alg».proof.Proof.Layer
import Idealize.ShloMosaic.Lib.StableHlo.Run
import Idealize.ShloMosaic.PureOps.Ideal.Laws

noncomputable section

namespace Cert.KernelIdeal.Operands

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The neighbour mean of core `c`'s arguments: the reference's stage of that name. -/
abbrev mean (c : Dev nD) : S50000x64.Idx → EReal :=
  Cert.ReferenceIdeal.Read.val_main_v25 (F := Ideal) (m ((c : Thread nD τ).loc main_arg0))
    (m ((c : Thread nD τ).loc main_arg1)) (m ((c : Thread nD τ).loc main_arg2))

/-- A constant-zero 64×64 block, as the host lines build it. -/
abbrev zeros : S64x64.Idx → EReal :=
  broadcastInDim S64x64 ![] bcast_S_S64x64 (constant (F := Ideal) S_ .f32 0x00000000#32)

/-- Every entry of the constant block is 0. -/
theorem zeros_apply (i : S64x64.Idx) : zeros i = 0 := Ideal.ofBits_zero_f32

set_option maxHeartbeats 2000000 in
set_option maxRecDepth 8192 in
/-- The region finds, as its first operand, the nodes' features beside their neighbour means. -/
theorem features_eq (c : Dev nD) :
    (V m c main_v26 : S50000x128.Idx → EReal)
      = concatenate S50000x128 1 [⟨S50000x64, m ((c : Thread nD τ).loc main_arg0)⟩, ⟨S50000x64, mean m c⟩]
          concatenates_S50000x64_S50000x64_S50000x128_d1 := by
  dsimp only [Gen.V, Gen.hostOps0]
  after_results
  rfl

set_option maxHeartbeats 2000000 in
set_option maxRecDepth 8192 in
/-- The region finds, as its second operand, the block-diagonal weight. -/
theorem weight_eq (c : Dev nD) :
    (V m c main_v31 : S128x128.Idx → EReal)
      = Cert.Layer.blockDiag (m ((c : Thread nD τ).loc main_arg3)) (m ((c : Thread nD τ).loc main_arg4)) zeros zeros
          concatenates_S64x64_S64x64_S64x128_d1 concatenates_S64x128_S64x128_S128x128_d0 := by
  dsimp only [Gen.V, Gen.hostOps0]
  after_results
  rfl

end Cert.KernelIdeal.Operands

end
-- ==== Proof.Rows.lean ====
/-
  From row blocks to the whole array.

  The grid has ten points. Point t owns rows 5000·t … 5000·t + 4999 of the output: it reads the same rows of the
  feature matrix [x | a], the whole block-diagonal weight and the whole bias, and writes back the dense stage of
  those rows. By the contraction law each written entry is the layer's entry at its own place in the array. The
  ten row blocks tile the 50000 rows (row r belongs to point r / 5000), so after the run the output array is the
  layer of the arguments, entry by entry.
-/
import proofs.«101507_j79972291052240_1_alg».proof.Proof.Gen.KernelIdeal.Value
import proofs.«101507_j79972291052240_1_alg».proof.Proof.Tile
import proofs.«101507_j79972291052240_1_alg».proof.Proof.Operands

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer of core `c`'s arguments: what the output array is to hold. -/
abbrev out (c : Dev nD) : S50000x128.Idx → EReal :=
  Cert.Layer.layer (m ((c : Thread nD τ).loc main_arg0)) (Operands.mean m c) (m ((c : Thread nD τ).loc main_arg3))
    (m ((c : Thread nD τ).loc main_arg4)) (m ((c : Thread nD τ).loc main_arg5))

theorem origin2 : (![0, 0] : Fin 2 → Nat) = fun _ => 0 := funext fun a => by fin_cases a <;> rfl
theorem origin1 : (![0] : Fin 1 → Nat) = fun _ => 0 := funext fun a => by fin_cases a; rfl

/-- The printed index maps over the ten points: the feature and output windows move down one row block per point,
    the weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 ∧ t.val < 10 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- One stored entry. With the three loaded blocks sitting in the whole arrays where the hypotheses say — row p of
    the feature block is row n of [x | a], the weight and bias blocks are the whole arrays — entry (p, q) of the
    body's stored value is the layer's entry (n, q). -/
theorem point (c : Dev nD) (x0 : Vec Ideal S5000x128 .f32) (x1 : Vec Ideal S128x128 .f32) (x2 : Vec Ideal S128 .f32)
    (p : Fin 5000) (q : Fin 128) (n : Fin 50000)
    (h0 : ∀ l : Fin 128, x0 (ix2 p l) = V m c main_v26 (ix2 n l))
    (h1 : ∀ l : Fin 128, x1 (ix2 l q) = V m c main_v31 (ix2 l q))
    (h2 : x2 (ix1 q) = m ((c : Thread nD τ).loc main_arg5) (ix1 q)) :
    k0_pay1 (F := Ideal) x0 x1 x2 (ix2 p q) = out m c (ix2 n q) := by
  refine (Tile.tile_apply x0 x1 x2 p q).trans ?_
  show _ = Cert.Layer.layerAt _ _ _ _ _ n q
  unfold Cert.Layer.layerAt
  refine congrArg₂ max (congrArg₂ (· + ·) ?_ h2) rfl
  refine (Finset.sum_congr rfl fun l _ => congrArg₂ (· * ·) (h0 l) (h1 l)).trans ?_
  rw [Operands.features_eq, Operands.weight_eq]
  exact Cert.Layer.contraction _ _ _ _ _ _ Operands.zeros_apply Operands.zeros_apply _ _ _ n q

/-- WHAT POINT `t` WRITES BACK is block `t` of the layer of the arguments. -/
theorem flushed_eq (c : Dev nD) (t : Fin cfg0.N) :
    (dats m 0 c).flushed 3 t = ((cfg0.win 3).blk t).view.read (Elt Ideal) (out m c) := by
  rw [Value.flushed3]
  unfold out0_3
  rw [View.canon_unit_zero origin2]
  simp only [View.ld_unit_zero (S := S5000x128) origin2, View.ld_unit_zero (S := S128x128) origin2,
    View.ld_unit_zero (S := S128) origin1]
  obtain ⟨e00, e01, e10, e11, e20, e30, e31, ht⟩ := idx_facts t
  funext j
  have hj0 : (j 0).val < 5000 := (j 0).isLt
  have hj1 : (j 1).val < 128 := (j 1).isLt
  have hj : j = ix2 (⟨(j 0).val, hj0⟩ : Fin 5000) (⟨(j 1).val, hj1⟩ : Fin 128) :=
    funext fun a => by
      match a with
      | ⟨0, _⟩ => rfl
      | ⟨1, _⟩ => rfl
  have hemb : ((cfg0.win 3).blk t).view.emb j
      = ix2 (⟨t.val * 5000 + (j 0).val, by omega⟩ : Fin 50000) (⟨(j 1).val, hj1⟩ : Fin 128) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  show k0_pay1 (F := Ideal) (iblk m c 0 t) (iblk m c 1 t) (iblk m c 2 t) j = out m c (((cfg0.win 3).blk t).view.emb j)
  refine (congrArg (k0_pay1 (F := Ideal) (iblk m c 0 t) (iblk m c 1 t) (iblk m c 2 t)) hj).trans ?_
  refine (point m c (iblk m c 0 t) (iblk m c 1 t) (iblk m c 2 t) ⟨(j 0).val, hj0⟩ ⟨(j 1).val, hj1⟩
    ⟨t.val * 5000 + (j 0).val, by omega⟩ ?_ ?_ ?_).trans (congrArg (out m c) hemb.symm)
  · intro l
    show V m c main_v26 (((cfg0.win 0).blk t).view.emb (ix2 (⟨(j 0).val, hj0⟩ : Fin 5000) l)) = _
    refine congrArg (V m c main_v26) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 128 + 1 * l.val = l.val; omega
  · intro l
    show V m c main_v31 (((cfg0.win 1).blk t).view.emb (ix2 l (⟨(j 1).val, hj1⟩ : Fin 128))) = _
    refine congrArg (V m c main_v31) (funext fun a => Fin.ext ?_)
    match a with
    | ⟨0, _⟩ => show win0_1.index t (0 : Fin 2) * 128 + 1 * l.val = l.val; omega
    | ⟨1, _⟩ => show win0_1.index t (1 : Fin 2) * 128 + 1 * (j 1).val = (j 1).val; omega
  · show V m c main_arg5 (((cfg0.win 2).blk t).view.emb (ix1 (⟨(j 1).val, hj1⟩ : Fin 128))) = _
    rw [V_main_arg5]
    refine congrArg (m ((c : Thread nD τ).loc main_arg5)) (funext fun a => Fin.ext ?_)
    match a with
    | ⟨0, _⟩ => show win0_2.index t (0 : Fin 1) * 128 + 1 * (j 1).val = (j 1).val; omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- The ten row blocks cover the array: row r is in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY after the run is the layer of the arguments. -/
theorem final (c : Dev nD) : (dats m 0 c).arrAt 3 cfg0.N = out m c :=
  (dats m 0 c).arrAt_eq_of_cover 3 (out m c) (fun t _ => flushed_eq m c t) (cover)

/-- The kernel's run: every weakly fair execution ends with the output array at the layer of the arguments and the
    arguments unchanged. -/
theorem run : θ_run defs (onTc (τ := τ) (main (F := Ideal))) ⟨m, fun _ => 0, ρ⟩ fun r => ∀ c : Dev nD,
      r.2.mem ((c : Thread nD τ).loc main_v32) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Rows

end
-- ==== Proof.Reference.lean ====
/-
  The reference is the layer.

  The reference projects the nodes' own features and their neighbour means separately, lays the two 50000×64 results
  side by side, adds the bias along the rows and clamps at zero. Read at node n and unit u, the side-by-side array
  is the first projection's entry (n, u) when u < 64 and the second's entry (n, u − 64) otherwise; each projection's
  entry is its sum over the 64 contraction positions. That is the layer's entry by its definition. The neighbour
  mean stays the reference's own stage of that name and is never opened.
-/
import proofs.«101507_j79972291052240_1_alg».proof.Proof.Gen.ReferenceIdeal.Read
import proofs.«101507_j79972291052240_1_alg».proof.Proof.Layer
import Idealize.ShloMosaic.PureOps.Ideal.Laws

noncomputable section

open scoped BigOperators

namespace Cert.ReferenceIdeal.RefLayer

open Cert.ReferenceIdeal Cert.ReferenceIdeal.Gen Cert.ReferenceIdeal.Read
open Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 x4 : (⟨S64x64, .f32⟩ : BufTy).Contents (Elt Ideal))
  (x5 : (⟨S128, .f32⟩ : BufTy).Contents (Elt Ideal))

/-- The side-by-side projections at node `n`, unit `u`: the projection that owns column `u`. -/
theorem projections_apply (n : Fin 50000) (u : Fin 128) :
    val_main_v28 (F := Ideal) x0 x1 x2 x3 x4 (ix2 n u)
      = if h : u.val < 64 then ∑ l : Fin 64, x0 (ix2 n l) * x3 (ix2 l ⟨u.val, h⟩)
        else ∑ l : Fin 64, val_main_v25 (F := Ideal) x0 x1 x2 (ix2 n l)
              * x4 (ix2 l ⟨u.val - 64, by have := u.isLt; omega⟩) := by
  have hu128 := u.isLt
  unfold val_main_v28
  by_cases hu : u.val < 64
  · rw [dif_pos hu]
    refine (Cert.LibConcat2.cols_left _ _ _ n u ⟨u.val, hu⟩ rfl).trans ?_
    rw [val_main_v26_apply]
    refine Finset.sum_congr rfl fun l _ => congrArg₂ (· * ·)
      (congrArg x0 (funext fun a => by
        match a with
        | ⟨0, _⟩ => rfl
        | ⟨1, _⟩ => rfl))
      (congrArg x3 (funext fun a => by
        match a with
        | ⟨0, _⟩ => rfl
        | ⟨1, _⟩ => rfl))
  · rw [dif_neg hu]
    refine (Cert.LibConcat2.cols_right _ _ _ n u ⟨u.val - 64, by omega⟩ (by show u.val - 64 + 64 = u.val; omega)).trans ?_
    rw [val_main_v27_apply]
    refine Finset.sum_congr rfl fun l _ => congrArg₂ (· * ·)
      (congrArg (val_main_v25 (F := Ideal) x0 x1 x2) (funext fun a => by
        match a with
        | ⟨0, _⟩ => rfl
        | ⟨1, _⟩ => rfl))
      (congrArg x4 (funext fun a => by
        match a with
        | ⟨0, _⟩ => rfl
        | ⟨1, _⟩ => rfl))

/-- The reference's result at node `n`, unit `u` is the layer's entry. -/
theorem result_apply (n : Fin 50000) (u : Fin 128) :
    val_main_v32 (F := Ideal) x0 x1 x2 x3 x4 x5 (ix2 n u)
      = Cert.Layer.layerAt x0 (val_main_v25 (F := Ideal) x0 x1 x2) x3 x4 x5 n u := by
  rw [val_main_v32_apply, val_main_v31_apply, val_main_call0_v0_apply, val_main_call0_cst_apply, val_main_v30_apply,
    val_main_v29_apply, Ideal.maximumf_def, Ideal.addf_def, Ideal.ofBits_def, Ideal.ofBits_zero_f32,
    projections_apply]
  unfold Cert.Layer.layerAt
  refine congrArg₂ max (congrArg₂ (· + ·) rfl (congrArg x5 (funext fun a => by
    match a with
    | ⟨0, _⟩ => rfl))) rfl

/-- The reference's result array is the layer of its arguments. -/
theorem result_eq :
    val_main_v32 (F := Ideal) x0 x1 x2 x3 x4 x5 = Cert.Layer.layer x0 (val_main_v25 (F := Ideal) x0 x1 x2) x3 x4 x5 := by
  funext i
  obtain ⟨n, u, rfl⟩ : ∃ (n : Fin 50000) (u : Fin 128), i = ix2 n u := ⟨i 0, i 1, eq_ix2 i⟩
  exact result_apply x0 x1 x2 x3 x4 x5 n u

end Cert.ReferenceIdeal.RefLayer

end
-- ==== Proof.lean ====
/-
  One layer of a graph convolution, 50000 nodes with 64 features and 800000 weighted edges.

  Each node's neighbour mean a is the edge-weighted sum of its neighbours' feature rows divided by its in-degree
  clamped below at one. The layer's output, 128 units wide, is
      out(n, u) = max (Σ_l x(n,l)·Ws(l,u) + β(u)) 0            for u < 64,
      out(n, u) = max (Σ_l a(n,l)·Wn(l,u−64) + β(u)) 0         for 64 ≤ u.
  The reference computes the two projections x·Ws and a·Wn separately, lays them side by side, adds the bias and
  clamps. The kernel lays the features side by side first, [x | a], and multiplies once by the 128×128 matrix with
  Ws and Wn on its diagonal and zeros off it, ten row blocks of 5000 nodes at a time, adding the bias and clamping
  inside the block. Both compute the neighbour mean by the same lines, so it is one term on both sides.

  On the extended reals the two agree entry by entry: the sum over the 128 contraction positions is cut after
  position 64; one half multiplies by zeros and vanishes, since zero absorbs every extended real; the other half is
  the projection that owns the column. The changes of float format in front of the kernel's product are the
  identity there. Nothing is asked of the inputs, so the precondition is never opened.

  The modules: Layer (the layer entry by entry, the block-diagonal weight's four quadrants, the contraction law),
  Tile (the kernel body's stored value at an entry of a row block), Operands (the feature matrix, weight and bias as
  the kernel finds them), Rows (the ten row blocks tile the output: the kernel's run ends at the layer), Reference
  (the reference's result is the layer), and two general ones: a two-piece concatenation read at coordinates, and
  the plain matrix product read at an entry. The three frame claims are the generated runs; the idealization
  rewrote nothing, so its claim is trivial.
-/
import proofs.«101507_j79972291052240_1_alg».proof.Defs
import proofs.«101507_j79972291052240_1_alg».proof.Proof.Gen.Kernel
import proofs.«101507_j79972291052240_1_alg».proof.Proof.Gen.Kernel.Skeleton
import proofs.«101507_j79972291052240_1_alg».proof.Proof.Gen.Kernel.Launch
import proofs.«101507_j79972291052240_1_alg».proof.Proof.Gen.Kernel.Points
import proofs.«101507_j79972291052240_1_alg».proof.Proof.Gen.Kernel.Frame
import proofs.«101507_j79972291052240_1_alg».proof.Proof.Gen.KernelIdeal
import proofs.«101507_j79972291052240_1_alg».proof.Proof.Gen.KernelIdeal.Skeleton
import proofs.«101507_j79972291052240_1_alg».proof.Proof.Gen.KernelIdeal.Launch
import proofs.«101507_j79972291052240_1_alg».proof.Proof.Gen.KernelIdeal.Points
import proofs.«101507_j79972291052240_1_alg».proof.Proof.Gen.KernelIdeal.Frame
import proofs.«101507_j79972291052240_1_alg».proof.Proof.Gen.ReferenceIdeal
import proofs.«101507_j79972291052240_1_alg».proof.Proof.Gen.Pre_finite_inputs
import proofs.«101507_j79972291052240_1_alg».proof.Proof.Gen.KernelIdeal.Value
import proofs.«101507_j79972291052240_1_alg».proof.Proof.Gen.ReferenceIdeal.Run
import proofs.«101507_j79972291052240_1_alg».proof.Proof.Gen.ReferenceIdeal.Read
import proofs.«101507_j79972291052240_1_alg».proof.Proof.Rows
import proofs.«101507_j79972291052240_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts)
    (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- And the reference: its run, with the result forgotten. -/
theorem frame_referenceIdeal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments, the idealized kernel and the idealized reference both end with the
    layer of those arguments in their result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Rows.out m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  refine (Cert.ReferenceIdeal.Read.val_main_v32_eq _ _ _ _ _ _).trans ?_
  refine (Cert.ReferenceIdeal.RefLayer.result_eq _ _ _ _ _ _).trans ?_
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
